-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8192x1024 .f32) (main_arg1 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S8192x1024 : Shape := ⟨2, ![8192, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S4096 : Shape := ⟨1, ![4096]⟩
abbrev S4096x1 : Shape := ⟨2, ![4096, 1]⟩
abbrev S1x4096 : Shape := ⟨2, ![1, 4096]⟩
abbrev S8192x4096 : Shape := ⟨2, ![8192, 4096]⟩
abbrev S1024x1 : Shape := ⟨2, ![1024, 1]⟩
abbrev S1x512 : Shape := ⟨2, ![1, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S1x4096, .f32⟩
  | .hbm, ⟨11, _⟩ => ⟨S8192x1024, .bf16⟩
  | .hbm, ⟨12, _⟩ => ⟨S4096x1024, .bf16⟩
  | .hbm, ⟨13, _⟩ => ⟨S8192x4096, .f32⟩
  | .local _ .vmem, ⟨0, _⟩ => ⟨S1024x1, .f32⟩
  | .local _ .vmem, ⟨1, _⟩ => ⟨S1024x1, .f32⟩
  | .local _ .vmem, ⟨2, _⟩ => ⟨S1x512, .f32⟩
  | .local _ .vmem, ⟨3, _⟩ => ⟨S1x512, .f32⟩
  | .local _ .vmem, ⟨4, _⟩ => ⟨S1024x1024, .bf16⟩
  | .local _ .vmem, ⟨5, _⟩ => ⟨S1024x1024, .bf16⟩
  | .local _ .vmem, ⟨6, _⟩ => ⟨S4096x1024, .bf16⟩
  | .local _ .vmem, ⟨7, _⟩ => ⟨S1024x512, .f32⟩
  | .local _ .vmem, ⟨8, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S4096x1024_S4096_d1 : S4096x1024.ReducesTo [1] S4096
  bcast_S4096_S4096x1_0 : S4096.BroadcastsInDim S4096x1 (![0] : Fin 1 → Fin S4096x1.rank)
  transposes_S4096x1_S1x4096_1_0 : S4096x1.Transposes [1, 0] S1x4096
  bitsLt_bf16_f32 : FTy.bits .bf16 < FTy.bits .f32
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S512x1024_p1_0_S1024x512 : S512x1024.Transposes [1, 0] S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S1024x512_S1024x512_1_0_0_1_n_n_wf : DotDims.WF S1024x1024 S1024x512 S1024x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .f32 = 32 ∨ (Rect.block (s := S8192x4096) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v2) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S4096x1024_S4096_d1 : S4096x1024.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.BodyBlock.lean ====
/-
  What one grid point's body leaves in the output block, as a value: its one store covers the whole
  [1024, 512] block, and its payload is the body's arithmetic (the generated payload term) of the four loads —
  the column of row norms, the row of prototype norms, the [1024, 1024] block of x, all three read whole, and
  the 512 rows of the resident prototype table that start at row 512·j, where j is the point's second grid
  coordinate.
-/
import proofs.«102189_j65481071398429_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.RbfBody

open Cert.KernelIdeal Cert.KernelIdeal.Gen

variable {F : FTy → Type} [FloatOps F]

theorem zero_offsets : (![0, 0] : Fin 2 → Nat) = fun _ => 0 := funext fun a => by fin_cases a <;> rfl

/-- The rows of the prototype table a point reads: 512 rows from the offset the body computes. -/
abbrev tableRows (i : grid0.Coords) (x3 : Vec F S4096x1024 .bf16) : Vec F S512x1024 .bf16 :=
  View.ld x3 (Rect.unit (s := S4096x1024) (k0_off1 i) S512x1024.size (k0_off1_inb i))

/-- The output block after the body, whatever it held before: the payload of the four loads. -/
theorem out_eq (c : Dev nD) (i : grid0.Coords) (a2 : Memref sig .tc .vmem S1024x1 .f32) (h2 : a2.IsWhole)
    (a3 : Memref sig .tc .vmem S1x512 .f32) (h3 : a3.IsWhole) (a4 : Memref sig .tc .vmem S1024x1024 .bf16) (h4 : a4.IsWhole)
    (a5 : Memref sig .tc .vmem S4096x1024 .bf16) (h5 : a5.IsWhole) (a6 : Memref sig .tc .vmem S1024x512 .f32) (h6 : a6.IsWhole)
    (x0 : Vec F S1024x1 .f32) (x1 : Vec F S1x512 .f32) (x2 : Vec F S1024x1024 .bf16) (x3 : Vec F S4096x1024 .bf16) :
    out0_A_4 c i a2 h2 a3 h3 a4 h4 a5 h5 a6 h6 x0 x1 x2 x3 = k0_pay1 (tableRows i x3) x2 x0 x1 := by
  unfold out0_A_4
  rw [View.read_writes_eq_canon _ _ _ (cover0_A_4 c i a2 h2 a3 h3 a4 h4 a5 h5 a6 h6 x0 x1 x2 x3)]
  unfold kernelRun0_A
  dsimp only
  rw [View.canon_unit_zero zero_offsets]
  simp only [View.readAt_eq_ld, h2.read_unread, h3.read_unread, h4.read_unread, h5.read_unread,
    View.ld_unit_zero (S := S1024x1024) zero_offsets, View.ld_unit_zero (S := S1024x1) zero_offsets,
    View.ld_unit_zero (S := S1x512) zero_offsets]

end Cert.KernelIdeal.RbfBody

end
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.SqDist.lean ====
/-
  The squared distance of two real vectors, expanded: for real a, b,
  ∑ a² + ∑ b² − 2 ∑ a·b = ∑ (a − b)² ≥ 0.  Read on the extended reals, with every entry real, the expanded
  expression is therefore a nonnegative real, and clamping it below at zero changes nothing.  (With an infinite
  entry the expansion may be negative infinity, so the statement needs the entries real.)
-/
import Mathlib

namespace Cert.SqDist

/-- The coercion from the reals to the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- ∑ a² + ∑ b² − 2 ∑ a·b is the sum of the squared differences, hence nonnegative. -/
theorem expansion_nonneg {ι : Type*} [Fintype ι] (a b : ι → ℝ) :
    0 ≤ (∑ k, a k * a k + ∑ k, b k * b k) - 2 * ∑ k, a k * b k := by
  have e : (∑ k, a k * a k + ∑ k, b k * b k) - 2 * ∑ k, a k * b k = ∑ k, (a k - b k) ^ 2 := by
    rw [Finset.mul_sum, ← Finset.sum_add_distrib, ← Finset.sum_sub_distrib]
    exact Finset.sum_congr rfl fun k _ => by ring
  rw [e]
  exact Finset.sum_nonneg fun k _ => sq_nonneg _

/-- The expanded squared distance of two vectors of extended reals whose entries are all real is nonnegative. -/
theorem expansion_nonneg_ereal {ι : Type*} [Fintype ι] (x p : ι → EReal)
    (hx : ∀ k, ∃ r : ℝ, x k = r) (hp : ∀ k, ∃ r : ℝ, p k = r) :
    0 ≤ ((0 + ∑ k, x k * x k) + (0 + ∑ k, p k * p k)) - ((2 : ℝ) : EReal) * ∑ k, x k * p k := by
  choose a ha using hx
  choose b hb using hp
  simp only [ha, hb, zero_add, ← EReal.coe_mul, ← coe_sum, ← EReal.coe_add, ← EReal.coe_sub]
  exact EReal.coe_nonneg.2 (expansion_nonneg a b)

/-- So clamping it below at zero is the identity. -/
theorem clamp_expansion {ι : Type*} [Fintype ι] (x p : ι → EReal)
    (hx : ∀ k, ∃ r : ℝ, x k = r) (hp : ∀ k, ∃ r : ℝ, p k = r) :
    max (((0 + ∑ k, x k * x k) + (0 + ∑ k, p k * p k)) - ((2 : ℝ) : EReal) * ∑ k, x k * p k) 0
      = ((0 + ∑ k, x k * x k) + (0 + ∑ k, p k * p k)) - ((2 : ℝ) : EReal) * ∑ k, x k * p k :=
  max_eq_left (expansion_nonneg_ereal x p hx hp)

end Cert.SqDist
-- ==== Proof.Spec.lean ====
/-
  What both programs compute, as one function of the two argument arrays.

  For x : [8192, 1024] and p : [4096, 1024] the result at (n, m) is exp (−1 · d(n, m)) where
  d(n, m) = (0 + ∑ₖ x[n,k]²) + (0 + ∑ₖ p[m,k]²) − 2 · ∑ₖ x[n,k] · p[m,k]
  is the squared distance of row n of x and row m of p in its expanded form.  The kernel clamps d below at zero
  before the exponential; on rows whose entries are real, d is a sum of squares (the module SqDist), so the clamp
  is the identity there.  The float literals stay as their words: only the word of 2.0 and the zero word are read.
-/
import Idealize.ShloMosaic.PureOps.Ideal
import Idealize.ShloMosaic.PureOps.Ideal.Laws
import Idealize.ShloMosaic.Lib.ValueIdx
import proofs.«102189_j65481071398429_2_alg».proof.Proof.SqDist

noncomputable section

namespace Cert.Rbf

open Idealize.ShloMosaic Idealize.ShloMosaic.ValueIdx

/-- The word of 2.0 denotes the real 2. -/
theorem ofBits_two : (Ideal.ofBits .f32 0x40000000#32 : EReal) = ((2 : ℝ) : EReal) := by
  simp [Ideal.ofBits, Ideal.ieee, -EReal.coe_mul]; norm_num

/-- The expanded squared distance of a row of x and a row of p. -/
def dist2 (xr pr : Fin 1024 → EReal) : EReal :=
  (((Ideal.ofBits .f32 0x00000000#32 : EReal) + ∑ k, xr k * xr k) + ((Ideal.ofBits .f32 0x00000000#32 : EReal) + ∑ k, pr k * pr k))
    - (Ideal.ofBits .f32 0x40000000#32 : EReal) * ∑ k, xr k * pr k

/-- One entry of the result: exp (−1 · d). -/
def entry (xr pr : Fin 1024 → EReal) : EReal :=
  Ideal.exp ((Ideal.ofBits .f32 0xBF800000#32 : EReal) * dist2 xr pr)

/-- The kernel's arithmetic on one entry, from the row norm a, the prototype norm b and the cross term cr it is
    handed: exp (−1 · max ((a + b) − 2 · cr) 0). -/
def clampedOf (a b cr : EReal) : EReal :=
  Ideal.exp ((Ideal.ofBits .f32 0xBF800000#32 : EReal)
    * max ((a + b) - (Ideal.ofBits .f32 0x40000000#32 : EReal) * cr) (Ideal.ofBits .f32 0x00000000#32 : EReal))

/-- The same with d clamped below at zero first, as the kernel computes it. -/
def entryClamped (xr pr : Fin 1024 → EReal) : EReal :=
  clampedOf ((Ideal.ofBits .f32 0x00000000#32 : EReal) + ∑ k, xr k * xr k)
    ((Ideal.ofBits .f32 0x00000000#32 : EReal) + ∑ k, pr k * pr k) (∑ k, xr k * pr k)

/-- On rows of reals the clamp is the identity: d is a sum of squares. -/
theorem entryClamped_eq (xr pr : Fin 1024 → EReal) (hx : ∀ k, ∃ r : ℝ, xr k = r) (hp : ∀ k, ∃ r : ℝ, pr k = r) :
    entryClamped xr pr = entry xr pr := by
  unfold entryClamped clampedOf entry dist2
  rw [Ideal.ofBits_zero_f32, ofBits_two, Cert.SqDist.clamp_expansion xr pr hx hp]

/-- Row n of a two-axis array with 1024 columns. -/
abbrev rowOf {N : Nat} (x : (⟨2, ![N, 1024]⟩ : Shape).Idx → EReal) (n : Fin N) : Fin 1024 → EReal :=
  fun k => x (ix2 n k)

/-- The result array: entry (n, m) from row n of x and row m of p. -/
def G (x : (⟨2, ![8192, 1024]⟩ : Shape).Idx → EReal) (p : (⟨2, ![4096, 1024]⟩ : Shape).Idx → EReal) :
    (⟨2, ![8192, 4096]⟩ : Shape).Idx → EReal :=
  fun i => entry (rowOf x ⟨(i 0).val, idx2_lt0 i⟩) (rowOf p ⟨(i 1).val, idx2_lt1 i⟩)

/-- The result array as the kernel computes it: the clamped entries. -/
def GClamped (x : (⟨2, ![8192, 1024]⟩ : Shape).Idx → EReal) (p : (⟨2, ![4096, 1024]⟩ : Shape).Idx → EReal) :
    (⟨2, ![8192, 4096]⟩ : Shape).Idx → EReal :=
  fun i => entryClamped (rowOf x ⟨(i 0).val, idx2_lt0 i⟩) (rowOf p ⟨(i 1).val, idx2_lt1 i⟩)

theorem GClamped_apply (x : (⟨2, ![8192, 1024]⟩ : Shape).Idx → EReal) (p : (⟨2, ![4096, 1024]⟩ : Shape).Idx → EReal)
    (n : Fin 8192) (m : Fin 4096) : GClamped x p (ix2 n m) = entryClamped (rowOf x n) (rowOf p m) := rfl

/-- When every entry of both arguments is real, the clamped array is the unclamped one. -/
theorem GClamped_eq_G (x : (⟨2, ![8192, 1024]⟩ : Shape).Idx → EReal) (p : (⟨2, ![4096, 1024]⟩ : Shape).Idx → EReal)
    (hx : ∀ i, ∃ r : ℝ, x i = r) (hp : ∀ i, ∃ r : ℝ, p i = r) : GClamped x p = G x p :=
  funext fun i => entryClamped_eq _ _ (fun k => hx _) (fun k => hp _)

theorem G_apply (x : (⟨2, ![8192, 1024]⟩ : Shape).Idx → EReal) (p : (⟨2, ![4096, 1024]⟩ : Shape).Idx → EReal)
    (n : Fin 8192) (m : Fin 4096) : G x p (ix2 n m) = entry (rowOf x n) (rowOf p m) := rfl

end Cert.Rbf

end
-- ==== Proof.PayloadEntry.lean ====
/-
  The body's arithmetic read at one entry (r, q) of the [1024, 512] block, on the extended reals:
  exp (−1 · max ((a[r] + b[q]) − 2 · ∑ₖ X[r,k] · P[q,k]) 0), where a is the loaded column of row norms, b the
  loaded row of prototype norms, X the loaded block of x and P the 512 loaded prototype rows.  The matrix
  product into a zero accumulator is the plain sum over the contracted axis; its right operand is the transpose
  of P, so its entry (k, q) is P[q, k]; the column is broadcast along columns and the row along rows.
-/
import proofs.«102189_j65481071398429_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«102189_j65481071398429_2_alg».proof.Proof.LibColumnLayout
import proofs.«102189_j65481071398429_2_alg».proof.Proof.Spec

noncomputable section

open Idealize.ShloMosaic Idealize.ShloMosaic.ValueIdx

namespace Cert.KernelIdeal.RbfPayload

open Cert.KernelIdeal Cert.KernelIdeal.Gen

/-- The body's contraction: [1024, 1024] times [1024, 512], second axis of the left against first of the right. -/
abbrev dims : DotDims S1024x1024 S1024x512 S1024x512 := dot_S1024x1024_S1024x512_S1024x512_1_0_0_1_n_n

/-- The left operand's index at output (i₀, i₁) keeps the output's row. -/
theorem lhs_row (i : S1024x512.Idx) (k : dims.contr.Idx) : (dims.lhsIdx i k 0).val = (i 0).val := by
  unfold DotDims.lhsIdx
  rw [dif_neg (show ¬(0 : Fin S1024x1024.rank) ∈ dims.lhsBatch by decide),
    dif_pos (show (0 : Fin S1024x1024.rank) ∈ dims.lhsNonContracting by decide)]
  rfl

/-- The right operand's index at output (i₀, i₁) keeps the output's column. -/
theorem rhs_col (i : S1024x512.Idx) (k : dims.contr.Idx) : (dims.rhsIdx i k 1).val = (i 1).val := by
  unfold DotDims.rhsIdx
  rw [dif_neg (show ¬(1 : Fin S1024x512.rank) ∈ dims.rhsBatch by decide),
    dif_pos (show (1 : Fin S1024x512.rank) ∈ dims.rhsNonContracting by decide)]
  rfl

/-- The matrix product into a zero accumulator, at (r, q): the sum over k of left (r, k) times right (k, q). -/
theorem cross_apply (lhs : FVec Ideal S1024x1024 .bf16) (rhs : FVec Ideal S1024x512 .bf16) (r : Fin 1024) (q : Fin 512) :
    matmul dims none lhs rhs (constant S1024x512 .f32 0x00000000#32) (ix2 r q)
      = ∑ k : Fin 1024, lhs (ix2 r k) * rhs (ix2 k q) := by
  simp only [matmul]
  rw [Ideal.matmul_constant_zero_apply, ← Equiv.sum_comp (contrEquiv1 dims 1024 rfl rfl).symm]
  refine Finset.sum_congr rfl fun k _ => ?_
  have hk := contrEquiv1_symm_val dims 1024 rfl rfl k
  have el : dims.lhsIdx (ix2 r q) ((contrEquiv1 dims 1024 rfl rfl).symm k) = ix2 r k := funext fun a => Fin.ext (by
    match a with
    | ⟨0, _⟩ => exact lhs_row _ _
    | ⟨1, _⟩ => exact (dims.lhsIdx_val_of_single rfl _ _).trans hk)
  have er : dims.rhsIdx (ix2 r q) ((contrEquiv1 dims 1024 rfl rfl).symm k) = ix2 k q := funext fun a => Fin.ext (by
    match a with
    | ⟨0, _⟩ => exact (dims.rhsIdx_val_of_single rfl _ _).trans hk
    | ⟨1, _⟩ => exact rhs_col _ _)
  rw [el, er]

/-- With the right operand the transpose of P : [512, 1024]: the sum over k of left (r, k) times P (q, k). -/
theorem cross_transposed (lhs : FVec Ideal S1024x1024 .bf16) (P : FVec Ideal S512x1024 .bf16) (r : Fin 1024) (q : Fin 512) :
    matmul dims none lhs (transpose S1024x512 [1, 0] P transposes_S512x1024_p1_0_S1024x512)
        (constant S1024x512 .f32 0x00000000#32) (ix2 r q)
      = ∑ k : Fin 1024, lhs (ix2 r k) * P (ix2 q k) := by
  rw [cross_apply]
  exact Finset.sum_congr rfl fun k _ =>
    congrArg (lhs (ix2 r k) * ·) (transpose_ix2_apply P transposes_S512x1024_p1_0_S1024x512 k q)

/-- The payload at (r, q). -/
theorem pay_apply (v3 : FVec Ideal S512x1024 .bf16) (v5 : FVec Ideal S1024x1024 .bf16) (v9 : FVec Ideal S1024x1 .f32)
    (v11 : FVec Ideal S1x512 .f32) (r : Fin 1024) (q : Fin 512) :
    k0_pay1 (F := Ideal) v3 v5 v9 v11 (ix2 r q)
      = Cert.Rbf.clampedOf (v9 (ix2 r (0 : Fin 1))) (v11 (ix2 (0 : Fin 1) q)) (∑ k : Fin 1024, v5 (ix2 r k) * v3 (ix2 q k)) := by
  unfold k0_pay1 Cert.Rbf.clampedOf
  simp only [shapeCast_self]
  show Ideal.exp (Ideal.ofBits .f32 0xBF800000#32 * max
      ((broadcastTo S1024x512 v9 broadcasts_S1024x1_S1024x512 (ix2 r q) + broadcastTo S1024x512 v11 broadcasts_S1x512_S1024x512 (ix2 r q))
        - Ideal.ofBits .f32 0x40000000#32 * matmul dims none v5 (transpose S1024x512 [1, 0] v3 transposes_S512x1024_p1_0_S1024x512)
            (constant S1024x512 .f32 0x00000000#32) (ix2 r q))
      (Ideal.ofBits .f32 0x00000000#32)) = _
  rw [broadcastTo_a1_ab_apply, broadcastTo_1b_ab_apply, cross_transposed]

end Cert.KernelIdeal.RbfPayload

end
-- ==== Proof.PointEntry.lean ====
/-
  One grid point's block, entry by entry, from the four loaded blocks as functions of the arguments.
  At the point with coordinates (a, b) the loaded column holds the norms of rows 1024·a … of x, the loaded row
  the norms of rows 512·b … of p, the loaded x block those rows of x, and the resident table all of p, of which
  the body takes the 512 rows from 512·b.  So entry (r, q) of the block is the clamped entry of row 1024·a + r
  of x against row 512·b + q of p.
-/
import proofs.«102189_j65481071398429_2_alg».proof.Proof.BodyBlock
import proofs.«102189_j65481071398429_2_alg».proof.Proof.PayloadEntry
import proofs.«102189_j65481071398429_2_alg».proof.Proof.Spec

noncomputable section

open Idealize.ShloMosaic Idealize.ShloMosaic.ValueIdx

namespace Cert.KernelIdeal.RbfPoint

open Cert.KernelIdeal Cert.KernelIdeal.Gen

/-- Row r of row block a of x. -/
abbrev rowAt (a : Fin 8) (r : Fin 1024) : Fin 8192 := ⟨1024 * a.val + r.val, by omega⟩
/-- Row q of row block b of p. -/
abbrev colAt (b : Fin 8) (q : Fin 512) : Fin 4096 := ⟨512 * b.val + q.val, by omega⟩

/-- The 512 table rows a point takes start at row 512·b, b its second coordinate. -/
theorem tableRows_apply (i : grid0.Coords) (x3 : FVec Ideal S4096x1024 .bf16) (b : Fin 8) (hb : (i 1).val = b.val)
    (q : Fin 512) (k : Fin 1024) :
    RbfBody.tableRows (F := Ideal) i x3 (ix2 q k) = x3 (ix2 (colAt b q) k) := by
  show x3 ((Rect.unit (s := S4096x1024) (k0_off1 i) S512x1024.size (k0_off1_inb i)).emb (ix2 q k)) = _
  refine congrArg x3 (funext fun d => Fin.ext ?_)
  have ho := k0_off1_eq i
  match d with
  | ⟨0, _⟩ =>
    show k0_off1 i 0 + 1 * q.val = 512 * b.val + q.val
    rw [ho]
    show 512 * (i 1).val + 1 * q.val = 512 * b.val + q.val
    rw [hb]; omega
  | ⟨1, _⟩ =>
    show k0_off1 i 1 + 1 * k.val = k.val
    rw [ho]
    show 0 + 1 * k.val = k.val
    omega

/-- Entry (r, q) of the block the point with coordinates (a, b) leaves. -/
theorem block_entry (x0 : FVec Ideal S1024x1 .f32) (x1 : FVec Ideal S1x512 .f32) (x2 : FVec Ideal S1024x1024 .bf16)
    (x3 : FVec Ideal S4096x1024 .bf16) (i : grid0.Coords)
    (X : (⟨2, ![8192, 1024]⟩ : Shape).Idx → EReal) (P : (⟨2, ![4096, 1024]⟩ : Shape).Idx → EReal)
    (a b : Fin 8) (hb : (i 1).val = b.val)
    (h0 : ∀ r : Fin 1024, x0 (ix2 r (0 : Fin 1))
      = (Ideal.ofBits .f32 0x00000000#32 : EReal) + ∑ k : Fin 1024, X (ix2 (rowAt a r) k) * X (ix2 (rowAt a r) k))
    (h1 : ∀ q : Fin 512, x1 (ix2 (0 : Fin 1) q)
      = (Ideal.ofBits .f32 0x00000000#32 : EReal) + ∑ k : Fin 1024, P (ix2 (colAt b q) k) * P (ix2 (colAt b q) k))
    (h2 : ∀ (r : Fin 1024) (k : Fin 1024), x2 (ix2 r k) = X (ix2 (rowAt a r) k))
    (h3 : ∀ (s : Fin 4096) (k : Fin 1024), x3 (ix2 s k) = P (ix2 s k))
    (r : Fin 1024) (q : Fin 512) :
    k0_pay1 (F := Ideal) (RbfBody.tableRows (F := Ideal) i x3) x2 x0 x1 (ix2 r q)
      = Cert.Rbf.entryClamped (Cert.Rbf.rowOf X (rowAt a r)) (Cert.Rbf.rowOf P (colAt b q)) := by
  rw [RbfPayload.pay_apply, h0, h1]
  unfold Cert.Rbf.entryClamped
  refine congrArg (Cert.Rbf.clampedOf _ _) (Finset.sum_congr rfl fun k _ => ?_)
  rw [h2, tableRows_apply i x3 b hb q k, h3]

end Cert.KernelIdeal.RbfPoint

end
-- ==== Proof.HostPrefix.lean ====
/-
  What the four operand arrays of the kernel's launch hold when the region is entered, read at an index.
  The program computes them from the two arguments before the launch:
    the column of row norms      [8192, 1]:  at (n, 0) it is 0 + ∑ₖ x[n,k]²;
    the row of prototype norms   [1, 4096]:  at (0, j) it is 0 + ∑ₖ p[j,k]² (a column of sums, transposed);
    x and p changed to the narrower float format, which on the extended reals is the identity.
  The two sums are the same host operations the reference applies, so their generated reading lemmas serve.
-/
import proofs.«102189_j65481071398429_2_alg».proof.Proof.Gen.KernelIdeal.Frame
import proofs.«102189_j65481071398429_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.ValueIdx Idealize.ShloMosaic.TcCoe Idealize.SL.Sem

namespace Cert.KernelIdeal.RbfHost

open Cert.KernelIdeal Cert.KernelIdeal.Gen

variable (m : (ℓ : Loc nD τ sig) → Buf (Elt Ideal) ℓ)

/-- The first argument, x, as launched. -/
abbrev argX (c : Dev nD) : S8192x1024.Idx → EReal := m ((c : Thread nD τ).loc main_arg0)
/-- The second argument, p, as launched. -/
abbrev argP (c : Dev nD) : S4096x1024.Idx → EReal := m ((c : Thread nD τ).loc main_arg1)

/-- The first operand array is the broadcast of the row sums of x·x. -/
theorem V_rowNorms (c : Dev nD) :
    (V m c main_v2 : S8192x1.Idx → EReal) = Cert.ReferenceIdeal.Read.val_main_v2 (F := Ideal) (argX m c) := by
  dsimp only [Gen.V, Gen.hostOps0]; after_results; rfl

/-- The second operand array is the transpose of the broadcast of the row sums of p·p. -/
theorem V_protoNorms (c : Dev nD) :
    (V m c main_v6 : S1x4096.Idx → EReal)
      = transpose S1x4096 [1, 0] (broadcastInDim S4096x1 ![0] bcast_S4096_S4096x1_0
          (Cert.ReferenceIdeal.Read.val_main_v4 (F := Ideal) (argP m c))) transposes_S4096x1_S1x4096_1_0 := by
  dsimp only [Gen.V, Gen.hostOps0]; after_results; rfl

/-- The third operand array is x. -/
theorem V_x (c : Dev nD) : (V m c main_v7 : S8192x1024.Idx → EReal) = argX m c := by
  dsimp only [Gen.V, Gen.hostOps0]; after_results; rfl

/-- The fourth operand array is p. -/
theorem V_p (c : Dev nD) : (V m c main_v8 : S4096x1024.Idx → EReal) = argP m c := by
  dsimp only [Gen.V, Gen.hostOps0]; after_results; rfl

open Cert.ReferenceIdeal.Read in
/-- The row norm of row n. -/
theorem rowNorm_apply (c : Dev nD) (n : Fin 8192) :
    (V m c main_v2 : S8192x1.Idx → EReal) (ix2 n (0 : Fin 1))
      = (Ideal.ofBits .f32 0x00000000#32 : EReal) + ∑ k : Fin 1024, argX m c (ix2 n k) * argX m c (ix2 n k) := by
  rw [V_rowNorms, val_main_v2_apply, val_main_v1_apply, val_main_cst_apply]
  have e : ∀ k : Fin 1024, idx_main_v1 (idx_main_v2 (ix2 n (0 : Fin 1))) k = ix2 n k :=
    fun k => funext fun a => Fin.ext (by match a with | ⟨0, _⟩ => rfl | ⟨1, _⟩ => rfl)
  simp only [val_main_v0_apply, e, Ideal.mulf_def, Ideal.ofBits_def]

open Cert.ReferenceIdeal.Read in
/-- The prototype norm of row j of p. -/
theorem protoNorm_apply (c : Dev nD) (j : Fin 4096) :
    (V m c main_v6 : S1x4096.Idx → EReal) (ix2 (0 : Fin 1) j)
      = (Ideal.ofBits .f32 0x00000000#32 : EReal) + ∑ k : Fin 1024, argP m c (ix2 j k) * argP m c (ix2 j k) := by
  rw [V_protoNorms, transpose_ix2_apply _ transposes_S4096x1_S1x4096_1_0 (0 : Fin 1) j,
    broadcastInDim_apply _ bcast_S4096_S4096x1_0 _ (ix2 j (0 : Fin 1)) (ix1 j) (fun a => match a with
      | ⟨0, _⟩ => by show j.val = if (4096 : Nat) = 1 then 0 else j.val; rw [if_neg (by decide)]),
    val_main_v4_apply, val_main_cst_0_apply]
  have e : ∀ k : Fin 1024, idx_main_v4 (ix1 j) k = ix2 j k :=
    fun k => funext fun a => Fin.ext (by match a with | ⟨0, _⟩ => rfl | ⟨1, _⟩ => rfl)
  simp only [val_main_v3_apply, e, Ideal.mulf_def, Ideal.ofBits_def]

end Cert.KernelIdeal.RbfHost

end
-- ==== Proof.KernelValue.lean ====
/-
  The kernel's result array after the run, as one function of the two arguments: the clamped entries.
  The grid is 8 by 8; the point (a, b) reads rows 1024·a … of the column of row norms and of x, columns
  512·b … of the row of prototype norms, the whole prototype table, and writes back block (a, b) of the
  [8192, 4096] result.  Each point's block is the block of the one whole-array function (the point's entries,
  the module PointEntry, over the operand arrays read in the module HostPrefix), and the 64 blocks cover the array.
-/
import proofs.«102189_j65481071398429_2_alg».proof.Proof.Gen.KernelIdeal.Value
import proofs.«102189_j65481071398429_2_alg».proof.Proof.PointEntry
import proofs.«102189_j65481071398429_2_alg».proof.Proof.HostPrefix
import proofs.«102189_j65481071398429_2_alg».proof.Proof.Spec

noncomputable section

open Idealize.ShloMosaic Idealize.ShloMosaic.ValueIdx Idealize.ShloMosaic.TcCoe Idealize.SL.Sem
open Idealize.ShloMosaic.Pipeline (Dat)

namespace Cert.KernelIdeal.RbfValue

open Cert.KernelIdeal Cert.KernelIdeal.Gen Cert.KernelIdeal.RbfHost Cert.KernelIdeal.RbfPoint

variable (m : (ℓ : Loc nD τ sig) → Buf (Elt Ideal) ℓ) (ρ : Dev nD → PrngReg)

/-- The printed index maps over the grid: point t has coordinates (t / 8, t % 8), and each window's block index is
    the coordinates its map keeps. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = t.val % 8
    ∧ (grid0.coords t (1 : Fin 2)).val = t.val % 8 :=
  (by decide +kernel : ∀ t : Fin grid0.N, _)

/-- Every block of the result is some point's. -/
theorem idx_onto : ∀ (a b : Fin 8), ∃ t : Fin cfg0.N, win0_4.index t = ![a.val, b.val] :=
  (by decide +kernel : ∀ (a b : Fin 8), ∃ t : Fin grid0.N, win0_4.index t = ![a.val, b.val])

/-- A point's two coordinates. -/
theorem point_coords (t : Fin cfg0.N) : ∃ a b : Fin 8, t.val / 8 = a.val ∧ t.val % 8 = b.val := by
  have hN : t.val < 64 := lt_of_lt_of_eq t.isLt (show cfg0.N = 64 from N_0)
  exact ⟨⟨t.val / 8, by omega⟩, ⟨t.val % 8, by omega⟩, rfl, rfl⟩

/-- The loaded column of row norms at a point of row block a: rows 1024·a … of the operand array. -/
theorem blk0_read (c : Dev nD) (t : Fin cfg0.N) (a : Fin 8) (ha : t.val / 8 = a.val) (r : Fin 1024) :
    (iblk m c 0 t : FVec Ideal S1024x1 .f32) (ix2 r (0 : Fin 1))
      = (V m c main_v2 : S8192x1.Idx → EReal) (ix2 (rowAt a r) (0 : Fin 1)) := by
  obtain ⟨e0, e1, -⟩ := idx_facts t
  unfold iblk
  rw [View.read_apply]
  show (V m c main_v2 : S8192x1.Idx → EReal) _ = _
  refine congrArg (V m c main_v2 : S8192x1.Idx → EReal) (funext fun d => Fin.ext ?_)
  match d with
  | ⟨0, _⟩ => show win0_0.index t (0 : Fin 2) * 1024 + 1 * r.val = 1024 * a.val + r.val; rw [e0, ha]; omega
  | ⟨1, _⟩ => show win0_0.index t (1 : Fin 2) * 1 + 1 * 0 = 0; rw [e1]

/-- The loaded row of prototype norms at a point of column block b. -/
theorem blk1_read (c : Dev nD) (t : Fin cfg0.N) (b : Fin 8) (hb : t.val % 8 = b.val) (q : Fin 512) :
    (iblk m c 1 t : FVec Ideal S1x512 .f32) (ix2 (0 : Fin 1) q)
      = (V m c main_v6 : S1x4096.Idx → EReal) (ix2 (0 : Fin 1) (colAt b q)) := by
  obtain ⟨-, -, e0, e1, -⟩ := idx_facts t
  unfold iblk
  rw [View.read_apply]
  show (V m c main_v6 : S1x4096.Idx → EReal) _ = _
  refine congrArg (V m c main_v6 : S1x4096.Idx → EReal) (funext fun d => Fin.ext ?_)
  match d with
  | ⟨0, _⟩ => show win0_1.index t (0 : Fin 2) * 1 + 1 * 0 = 0; rw [e0]
  | ⟨1, _⟩ => show win0_1.index t (1 : Fin 2) * 512 + 1 * q.val = 512 * b.val + q.val; rw [e1, hb]; omega

/-- The loaded block of x at a point of row block a. -/
theorem blk2_read (c : Dev nD) (t : Fin cfg0.N) (a : Fin 8) (ha : t.val / 8 = a.val) (r : Fin 1024) (k : Fin 1024) :
    (iblk m c 2 t : FVec Ideal S1024x1024 .bf16) (ix2 r k)
      = (V m c main_v7 : S8192x1024.Idx → EReal) (ix2 (rowAt a r) k) := by
  obtain ⟨-, -, -, -, e0, e1, -⟩ := idx_facts t
  unfold iblk
  rw [View.read_apply]
  show (V m c main_v7 : S8192x1024.Idx → EReal) _ = _
  refine congrArg (V m c main_v7 : S8192x1024.Idx → EReal) (funext fun d => Fin.ext ?_)
  match d with
  | ⟨0, _⟩ => show win0_2.index t (0 : Fin 2) * 1024 + 1 * r.val = 1024 * a.val + r.val; rw [e0, ha]; omega
  | ⟨1, _⟩ => show win0_2.index t (1 : Fin 2) * 1024 + 1 * k.val = k.val; rw [e1]; omega

/-- The resident table at every point: all of the operand array. -/
theorem blk3_read (c : Dev nD) (t : Fin cfg0.N) (s : Fin 4096) (k : Fin 1024) :
    (iblk m c 3 t : FVec Ideal S4096x1024 .bf16) (ix2 s k) = (V m c main_v8 : S4096x1024.Idx → EReal) (ix2 s k) := by
  obtain ⟨-, -, -, -, -, -, e0, e1, -⟩ := idx_facts t
  unfold iblk
  rw [View.read_apply]
  show (V m c main_v8 : S4096x1024.Idx → EReal) _ = _
  refine congrArg (V m c main_v8 : S4096x1024.Idx → EReal) (funext fun d => Fin.ext ?_)
  match d with
  | ⟨0, _⟩ => show win0_3.index t (0 : Fin 2) * 4096 + 1 * s.val = s.val; rw [e0]; omega
  | ⟨1, _⟩ => show win0_3.index t (1 : Fin 2) * 1024 + 1 * k.val = k.val; rw [e1]; omega

/-- What point t writes back is block t of the clamped array of the two arguments. -/
theorem flushed_eq (c : Dev nD) (t : Fin cfg0.N) :
    (dats m 0 c).flushed 4 t
      = ((cfg0.win 4).blk t).view.read (Elt Ideal) (Cert.Rbf.GClamped (argX m c) (argP m c)) := by
  obtain ⟨a, b, ha, hb⟩ := point_coords t
  obtain ⟨-, -, -, -, -, -, -, -, e40, e41, ec⟩ := idx_facts t
  rw [Value.flushed4_A, RbfBody.out_eq]
  funext j
  obtain ⟨r, q, rfl⟩ : ∃ (r : Fin 1024) (q : Fin 512), j = ix2 r q := ⟨j 0, j 1, eq_ix2 j⟩
  show k0_pay1 (F := Ideal) (RbfBody.tableRows (grid0.coords t) (iblk m c 3 t)) (iblk m c 2 t) (iblk m c 0 t)
      (iblk m c 1 t) (ix2 r q)
    = Cert.Rbf.GClamped (argX m c) (argP m c) (((cfg0.win 4).blk t).view.emb (ix2 r q))
  have hemb : ((cfg0.win 4).blk t).view.emb (ix2 r q) = ix2 (rowAt a r) (colAt b q) := funext fun d => Fin.ext (by
    match d with
    | ⟨0, _⟩ => show win0_4.index t (0 : Fin 2) * 1024 + 1 * r.val = 1024 * a.val + r.val; rw [e40, ha]; omega
    | ⟨1, _⟩ => show win0_4.index t (1 : Fin 2) * 512 + 1 * q.val = 512 * b.val + q.val; rw [e41, hb]; omega)
  rw [hemb, Cert.Rbf.GClamped_apply]
  exact block_entry (iblk m c 0 t) (iblk m c 1 t) (iblk m c 2 t) (iblk m c 3 t) (grid0.coords t) (argX m c) (argP m c)
    a b (ec.trans hb)
    (fun r => (blk0_read m c t a ha r).trans (rowNorm_apply m c (rowAt a r)))
    (fun q => (blk1_read m c t b hb q).trans (protoNorm_apply m c (colAt b q)))
    (fun r k => (blk2_read m c t a ha r k).trans (congrFun (V_x m c) (ix2 (rowAt a r) k)))
    (fun s k => (blk3_read m c t s k).trans (congrFun (V_p m c) (ix2 s k)))
    r q

/-- An index of the result is in point t's block iff each coordinate is in the block's range on its axis. -/
theorem mem_blk (t : Fin cfg0.N) (i : S8192x4096.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v9).slice (win0_4.rect t)).set ↔ _
  rw [View.set_slice_whole, Rect.mem_set_unit]
  exact Iff.rfl

/-- The 64 blocks cover the result: entry (n, j) is in the block of the point (n / 1024, j / 512). -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 512 ≤ (i 1).val ∧ (i 1).val < win0_4.index t (1 : Fin 2) * 512 + 512
    omega

/-- The result array after the run. -/
theorem final (c : Dev nD) : (dats m 0 c).arrAt 4 cfg0.N = Cert.Rbf.GClamped (argX m c) (argP m c) :=
  (dats m 0 c).arrAt_eq_of_cover 4 (Cert.Rbf.GClamped (argX m c) (argP m c)) (fun t _ => flushed_eq m c t) cover

/-- The run: every weakly fair execution ends with the result array at the clamped function of the arguments, the
    arguments unchanged. -/
theorem run : θ_run defs (onTc (τ := τ) (main (F := Ideal))) ⟨m, fun _ => 0, ρ⟩ fun r => ∀ c : Dev nD,
      r.2.mem ((c : Thread nD τ).loc main_v9) = Cert.Rbf.GClamped (argX m c) (argP m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.RbfValue

end
-- ==== Proof.RefValue.lean ====
/-
  The reference program's result, read index by index: at (n, m) it is exp (−1 · d(n, m)) with d the expanded
  squared distance of row n of x and row m of p — the function G of the specification, with no clamp.
  Each stage of the reference is read at an index by its generated lemma; what is left is that the composed
  index maps (a row sum broadcast along columns, a row sum of p broadcast along rows, the contraction of the
  two second axes) name row n of x and row m of p.
-/
import proofs.«102189_j65481071398429_2_alg».proof.Proof.Gen.ReferenceIdeal.Read
import proofs.«102189_j65481071398429_2_alg».proof.Proof.Spec

noncomputable section

namespace Cert.Rbf.Ref

open Idealize.ShloMosaic Idealize.ShloMosaic.ValueIdx Cert.ReferenceIdeal Cert.ReferenceIdeal.Read

/-- The reference's last stage is G of the two arguments. -/
theorem val_eq_G (x0 : (⟨S8192x1024, .f32⟩ : BufTy).Contents (Elt Ideal)) (x1 : (⟨S4096x1024, .f32⟩ : BufTy).Contents (Elt Ideal)) :
    val_main_v15 (F := Ideal) x0 x1 = Cert.Rbf.G x0 x1 := by
  funext i
  have e1 : ∀ k : Fin 1024, idx_main_v1 (idx_main_v2 (idx_main_v7 i)) k = ix2 (⟨(i 0).val, idx2_lt0 i⟩ : Fin 8192) k :=
    fun k => funext fun a => Fin.ext (by match a with | ⟨0, _⟩ => rfl | ⟨1, _⟩ => rfl)
  have e2 : ∀ k : Fin 1024, idx_main_v4 (idx_main_v6 (idx_main_v8 i)) k = ix2 (⟨(i 1).val, idx2_lt1 i⟩ : Fin 4096) k :=
    fun k => funext fun a => Fin.ext (by match a with | ⟨0, _⟩ => rfl | ⟨1, _⟩ => rfl)
  have e3 : ∀ k : Fin 1024, lidx_main_v5 i k = ix2 (⟨(i 0).val, idx2_lt0 i⟩ : Fin 8192) k :=
    fun k => funext fun a => Fin.ext (by match a with | ⟨0, _⟩ => rfl | ⟨1, _⟩ => rfl)
  have e4 : ∀ k : Fin 1024, ridx_main_v5 i k = ix2 (⟨(i 1).val, idx2_lt1 i⟩ : Fin 4096) k :=
    fun k => funext fun a => Fin.ext (by match a with | ⟨0, _⟩ => rfl | ⟨1, _⟩ => rfl)
  rw [val_main_v15_apply, val_main_v14_apply, val_main_v13_apply, val_main_cst_2_apply, val_main_v12_apply,
    val_main_v9_apply, val_main_v7_apply, val_main_v8_apply, val_main_v2_apply, val_main_v6_apply,
    val_main_v1_apply, val_main_v4_apply, val_main_v11_apply, val_main_v10_apply, val_main_cst_1_apply,
    val_main_v5_apply, val_main_cst_apply, val_main_cst_0_apply]
  simp only [val_main_v0_apply, val_main_v3_apply, e1, e2, e3, e4, Ideal.hostUnary_exp_def, Ideal.mulf_def,
    Ideal.subf_def, Ideal.addf_def, Ideal.ofBits_def]
  rfl

end Cert.Rbf.Ref

end
-- ==== Proof.Finite.lean ====
/-
  The precondition read back: it says that |x| < +∞ holds at every entry of x and of p (two reductions by "and"
  over all axes, conjoined).  An extended real whose absolute value is below +∞ is neither infinity, so it is a
  real number.
-/
import proofs.«102189_j65481071398429_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic Idealize.ShloMosaic.ValueIdx

namespace Cert.Rbf.Finite

/-- The word of +∞ denotes the top element. -/
theorem ofBits_inf : (Ideal.ofBits .f32 0x7F800000#32 : EReal) = ⊤ := by
  simp [Ideal.ofBits, Ideal.ieee]

/-- An extended real with |a| < +∞ is a real. -/
theorem real_of_abs_lt_inf (a : EReal)
    (h : Ideal.cmp .olt (max a (-a)) (Ideal.ofBits .f32 0x7F800000#32 : EReal) = 1#1) : ∃ r : ℝ, a = r := by
  rw [ofBits_inf] at h
  induction a using EReal.rec with
  | bot => exfalso; revert h; simp [Ideal.cmp]
  | coe r => exact ⟨r, rfl⟩
  | top => exfalso; revert h; simp [Ideal.cmp]

instance : Subsingleton Cert.Pre_finite_inputs.S_.Idx := ⟨fun a b => funext fun d => d.elim0⟩

/-- Under the precondition every entry of both arguments is a real number. -/
theorem reals_of_pre [Cert.Pre_finite_inputs.Facts] (x : FVec Ideal Cert.Pre_finite_inputs.S8192x1024 .f32)
    (p : FVec Ideal Cert.Pre_finite_inputs.S4096x1024 .f32)
    (h : Cert.Pre_finite_inputs.fn (F := Ideal) x p = fun _ => 1#1) :
    (∀ i, ∃ r : ℝ, x i = r) ∧ (∀ i, ∃ r : ℝ, p i = r) := by
  have h0 := congrFun h ix0
  dsimp only [Cert.Pre_finite_inputs.fn] at h0
  obtain ⟨hx, hp⟩ := IntOp.andi_eq_one.1 h0
  exact ⟨fun i => real_of_abs_lt_inf (x i) (Host.reduce_andi_all _ _ _ _ ix0 hx i),
    fun i => real_of_abs_lt_inf (p i) (Host.reduce_andi_all _ _ _ _ ix0 hp i)⟩

end Cert.Rbf.Finite

end
-- ==== Proof.lean ====
/-
  The kernel computes, for x : [8192, 1024] and p : [4096, 1024], the array exp (−max (d, 0)) where
  d(n, m) = ‖x[n]‖² + ‖p[m]‖² − 2 · x[n]·p[m] is the squared distance of row n of x and row m of p in expanded
  form: the two norms are summed on the host before the launch, the cross term is a matrix product on an 8 by 8
  grid of [1024, 512] blocks against a resident copy of p.  The reference computes exp (−d) with no clamp.

  On the extended reals the two agree because, every input entry being a real number (the precondition), d is
  the sum of the squares of the differences x[n,k] − p[m,k], hence nonnegative, and the clamp is the identity.
  A change of float format is the identity there, the matrix product into a zero accumulator and the reference's
  contraction are the same sum, and the host sums are the same operations in both programs.

  The three frames and both programs' runs come from the generated modules (the kernel's run block by block,
  the reference's run and its stages read at an index); the idealized kernel is the kernel's own text read on
  the extended reals, so the claim that it is the kernel's idealization has no conjunct.  Written here: the law (SqDist, Spec), the reference read as the specification (RefValue),
  the body's block as a value and entry by entry (BodyBlock, PayloadEntry, PointEntry), the operand arrays the
  host computes (HostPrefix), the blocks assembled into the whole array (KernelValue), and the precondition read
  back as "every entry is real" (Finite).
-/
import proofs.«102189_j65481071398429_2_alg».proof.Defs
import proofs.«102189_j65481071398429_2_alg».proof.Proof.Gen.Kernel
import proofs.«102189_j65481071398429_2_alg».proof.Proof.Gen.Kernel.Frame
import proofs.«102189_j65481071398429_2_alg».proof.Proof.Gen.KernelIdeal
import proofs.«102189_j65481071398429_2_alg».proof.Proof.Gen.KernelIdeal.Frame
import proofs.«102189_j65481071398429_2_alg».proof.Proof.Gen.KernelIdeal.Value
import proofs.«102189_j65481071398429_2_alg».proof.Proof.Gen.ReferenceIdeal
import proofs.«102189_j65481071398429_2_alg».proof.Proof.Gen.ReferenceIdeal.Run
import proofs.«102189_j65481071398429_2_alg».proof.Proof.Gen.ReferenceIdeal.Read
import proofs.«102189_j65481071398429_2_alg».proof.Proof.Gen.Pre_finite_inputs
import proofs.«102189_j65481071398429_2_alg».proof.Proof.KernelValue
import proofs.«102189_j65481071398429_2_alg».proof.Proof.RefValue
import proofs.«102189_j65481071398429_2_alg».proof.Proof.Finite
import proofs.«102189_j65481071398429_2_alg».proof.Proof.Spec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same array: the kernel's clamped entries are the reference's entries, the inputs
    being real. -/
theorem algebraic : Cert.algebraic_KernelIdeal_ReferenceIdeal := by
  intro m ρ m' ρ' hpre hagree
  refine ⟨_, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hp⟩ := Cert.Rbf.Finite.reals_of_pre _ _ (hpre c)
  rw [(hagree c).1, (hagree c).2, Cert.ReferenceIdeal.Read.val_main_v15_eq, Cert.Rbf.Ref.val_eq_G]
  exact (Cert.Rbf.GClamped_eq_G _ _ hx hp).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
